-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1280 : Shape := ⟨3, ![32, 4096, 1280]⟩
abbrev S32x8 : Shape := ⟨2, ![32, 8]⟩
abbrev S8x64x1280 : Shape := ⟨3, ![8, 64, 1280]⟩
abbrev S8x1280x64 : Shape := ⟨3, ![8, 1280, 64]⟩
abbrev S64x1280 : Shape := ⟨2, ![64, 1280]⟩
abbrev S1280x64 : Shape := ⟨2, ![1280, 64]⟩
abbrev S32 : Shape := ⟨1, ![32]⟩
abbrev S_ : Shape := ⟨0, ![]⟩

class Facts : Prop where
  bcast_S_S32x4096x1280 : S_.BroadcastsInDim S32x4096x1280 (![] : Fin 0 → Fin S32x4096x1280.rank)
  reducesTo_S32x4096x1280_S_d0_1_2 : S32x4096x1280.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S8x64x1280 : S_.BroadcastsInDim S8x64x1280 (![] : Fin 0 → Fin S8x64x1280.rank)
  reducesTo_S8x64x1280_S_d0_1_2 : S8x64x1280.ReducesTo [0, 1, 2] S_
  bcast_S_S8x1280x64 : S_.BroadcastsInDim S8x1280x64 (![] : Fin 0 → Fin S8x1280x64.rank)
  reducesTo_S8x1280x64_S_d0_1_2 : S8x1280x64.ReducesTo [0, 1, 2] S_
  bcast_S_S64x1280 : S_.BroadcastsInDim S64x1280 (![] : Fin 0 → Fin S64x1280.rank)
  reducesTo_S64x1280_S_d0_1 : S64x1280.ReducesTo [0, 1] S_
  bcast_S_S1280x64 : S_.BroadcastsInDim S1280x64 (![] : Fin 0 → Fin S1280x64.rank)
  reducesTo_S1280x64_S_d0_1 : S1280x64.ReducesTo [0, 1] S_

variable [Facts]

def fn_part1 {F : FTy → Type} [FloatOps F] (main_arg4 : FVec F S64x1280 .f32) (main_arg5 : FVec F S1280x64 .f32) (main_v13 : IVec S_ 1) (main_v16 : IVec S8x1280x64 1) : IVec S_ 1 :=
  let main_c_5 : IVec S_ 1 := constantI S_ 1 1#1
  let main_v17 : IVec S_ 1 := (fun x v => Host.reduce IntOp.andi x v reducesTo_S8x1280x64_S_d0_1_2 h_S_) main_v16 main_c_5
  let main_v18 : IVec S_ 1 := andi main_v13 main_v17
  let main_v19 : FVec F S64x1280 .f32 := Host.absf main_arg4
  let main_cst_6 : FVec F S_ .f32 := constant S_ .f32 0x7F800000#32
  let main_v20 : FVec F S64x1280 .f32 := broadcastInDim S64x1280 ![] bcast_S_S64x1280 main_cst_6
  let main_v21 : IVec S64x1280 1 := cmpf .olt main_v19 main_v20
  let main_c_7 : IVec S_ 1 := constantI S_ 1 1#1
  let main_v22 : IVec S_ 1 := (fun x v => Host.reduce IntOp.andi x v reducesTo_S64x1280_S_d0_1 h_S_) main_v21 main_c_7
  let main_v23 : IVec S_ 1 := andi main_v18 main_v22
  let main_v24 : FVec F S1280x64 .f32 := Host.absf main_arg5
  let main_cst_8 : FVec F S_ .f32 := constant S_ .f32 0x7F800000#32
  let main_v25 : FVec F S1280x64 .f32 := broadcastInDim S1280x64 ![] bcast_S_S1280x64 main_cst_8
  let main_v26 : IVec S1280x64 1 := cmpf .olt main_v24 main_v25
  let main_c_9 : IVec S_ 1 := constantI S_ 1 1#1
  let main_v27 : IVec S_ 1 := (fun x v => Host.reduce IntOp.andi x v reducesTo_S1280x64_S_d0_1 h_S_) main_v26 main_c_9
  let main_v28 : IVec S_ 1 := andi main_v23 main_v27
  main_v28

def fn {F : FTy → Type} [FloatOps F] (main_arg0 : FVec F S32x4096x1280 .f32) (main_arg1 : FVec F S32x8 .f32) (main_arg2 : FVec F S8x64x1280 .f32) (main_arg3 : FVec F S8x1280x64 .f32) (main_arg4 : FVec F S64x1280 .f32) (main_arg5 : FVec F S1280x64 .f32) (main_arg6 : IVec S32 32) : IVec S_ 1 :=
  let main_v0 : FVec F S32x4096x1280 .f32 := Host.absf main_arg0
  let main_cst : FVec F S_ .f32 := constant S_ .f32 0x7F800000#32
  let main_v1 : FVec F S32x4096x1280 .f32 := broadcastInDim S32x4096x1280 ![] bcast_S_S32x4096x1280 main_cst
  let main_v2 : IVec S32x4096x1280 1 := cmpf .olt main_v0 main_v1
  let main_c : IVec S_ 1 := constantI S_ 1 1#1
  let main_v3 : IVec S_ 1 := (fun x v => Host.reduce IntOp.andi x v reducesTo_S32x4096x1280_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S8x64x1280 .f32 := Host.absf main_arg2
  let main_cst_2 : FVec F S_ .f32 := constant S_ .f32 0x7F800000#32
  let main_v10 : FVec F S8x64x1280 .f32 := broadcastInDim S8x64x1280 ![] bcast_S_S8x64x1280 main_cst_2
  let main_v11 : IVec S8x64x1280 1 := cmpf .olt main_v9 main_v10
  let main_c_3 : IVec S_ 1 := constantI S_ 1 1#1
  let main_v12 : IVec S_ 1 := (fun x v => Host.reduce IntOp.andi x v reducesTo_S8x64x1280_S_d0_1_2 h_S_) main_v11 main_c_3
  let main_v13 : IVec S_ 1 := andi main_v8 main_v12
  let main_v14 : FVec F S8x1280x64 .f32 := Host.absf main_arg3
  let main_cst_4 : FVec F S_ .f32 := constant S_ .f32 0x7F800000#32
  let main_v15 : FVec F S8x1280x64 .f32 := broadcastInDim S8x1280x64 ![] bcast_S_S8x1280x64 main_cst_4
  let main_v16 : IVec S8x1280x64 1 := cmpf .olt main_v14 main_v15
  fn_part1 (F := F) main_arg4 main_arg5 main_v13 main_v16
-- ==== Kernel.lean ====
abbrev S32x4096x1280 : Shape := ⟨3, ![32, 4096, 1280]⟩
abbrev S32x8 : Shape := ⟨2, ![32, 8]⟩
abbrev S8x64x1280 : Shape := ⟨3, ![8, 64, 1280]⟩
abbrev S8x1280x64 : Shape := ⟨3, ![8, 1280, 64]⟩
abbrev S64x1280 : Shape := ⟨2, ![64, 1280]⟩
abbrev S1280x64 : Shape := ⟨2, ![1280, 64]⟩
abbrev S32 : Shape := ⟨1, ![32]⟩
abbrev S_ : Shape := ⟨0, ![]⟩
abbrev S32x1 : Shape := ⟨2, ![32, 1]⟩
abbrev S32x64x1280 : Shape := ⟨3, ![32, 64, 1280]⟩
abbrev S32x1280x64 : Shape := ⟨3, ![32, 1280, 64]⟩
abbrev S32x128x1280 : Shape := ⟨3, ![32, 128, 1280]⟩
abbrev S1x1024x1280 : Shape := ⟨3, ![1, 1024, 1280]⟩
abbrev S1x128x1280 : Shape := ⟨3, ![1, 128, 1280]⟩
abbrev S1024x1280 : Shape := ⟨2, ![1024, 1280]⟩
abbrev S128x1280 : Shape := ⟨2, ![128, 1280]⟩
abbrev S1024x128 : Shape := ⟨2, ![1024, 128]⟩

abbrev nBuf : Space → Nat
  | .hbm => 34
  | .vmem => 8
  | .smem => 0
  | _ => 0

abbrev bufTy : (tb : Table) → Fin (tcTables nBuf tb) → BufTy
  | .hbm, ⟨0, _⟩ => ⟨S32x4096x1280, .f32⟩
  | .hbm, ⟨1, _⟩ => ⟨S32x8, .f32⟩
  | .hbm, ⟨2, _⟩ => ⟨S8x64x1280, .f32⟩
  | .hbm, ⟨3, _⟩ => ⟨S8x1280x64, .f32⟩
  | .hbm, ⟨4, _⟩ => ⟨S64x1280, .f32⟩
  | .hbm, ⟨5, _⟩ => ⟨S1280x64, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x64x1280, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x1280x64, .f32⟩
  | .hbm, ⟨25, _⟩ => ⟨S32x64x1280, .f32⟩
  | .hbm, ⟨26, _⟩ => ⟨S64x1280, .f32⟩
  | .hbm, ⟨27, _⟩ => ⟨S32x64x1280, .f32⟩
  | .hbm, ⟨28, _⟩ => ⟨S32x128x1280, .f32⟩
  | .hbm, ⟨29, _⟩ => ⟨S32x128x1280, .bf16⟩
  | .hbm, ⟨30, _⟩ => ⟨S32x64x1280, .f32⟩
  | .hbm, ⟨31, _⟩ => ⟨S32x128x1280, .f32⟩
  | .hbm, ⟨32, _⟩ => ⟨S32x128x1280, .bf16⟩
  | .hbm, ⟨33, _⟩ => ⟨S32x4096x1280, .f32⟩
  | .local _ .vmem, ⟨0, _⟩ => ⟨S1x1024x1280, .f32⟩
  | .local _ .vmem, ⟨1, _⟩ => ⟨S1x1024x1280, .f32⟩
  | .local _ .vmem, ⟨2, _⟩ => ⟨S1x128x1280, .bf16⟩
  | .local _ .vmem, ⟨3, _⟩ => ⟨S1x128x1280, .bf16⟩
  | .local _ .vmem, ⟨4, _⟩ => ⟨S1x128x1280, .bf16⟩
  | .local _ .vmem, ⟨5, _⟩ => ⟨S1x128x1280, .bf16⟩
  | .local _ .vmem, ⟨6, _⟩ => ⟨S1x1024x1280, .f32⟩
  | .local _ .vmem, ⟨7, _⟩ => ⟨S1x1024x1280, .f32⟩
  | _, _ => ⟨S32x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg0 : BitVec 32 := BitVec.ofNat 32 (i 0).val
  let c31_i32 : BitVec 32 := 31#32
  let v0 : BitVec 1 := Scalar.cmpi .eq arg0 c31_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c31_i32_0 : BitVec 32 := 31#32
  let v3 : BitVec 1 := Scalar.cmpi .ne arg0 c31_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.minsi arg0 c30_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.minsi arg0 c30_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.minsi arg0 c30_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32 : S_.BroadcastsInDim S32 (![] : Fin 0 → Fin S32.rank)
  bcast_S32_S32x1_0 : S32.BroadcastsInDim S32x1 (![0] : Fin 1 → Fin S32x1.rank)
  transposes_S32x1280x64_S32x64x1280_0_2_1 : S32x1280x64.Transposes [0, 2, 1] S32x64x1280
  transposes_S1280x64_S64x1280_1_0 : S1280x64.Transposes [1, 0] S64x1280
  bcast_S64x1280_S32x64x1280_1_2 : S64x1280.BroadcastsInDim S32x64x1280 (![1, 2] : Fin 2 → Fin S32x64x1280.rank)
  concatenates_S32x64x1280_S32x64x1280_S32x128x1280_d1 : Shape.Concatenates [S32x64x1280, S32x64x1280] S32x128x1280 1
  bitsLt_bf16_f32 : FTy.bits .bf16 < FTy.bits .f32
  inb_S1x1024x1280_S1x1024x1280_0_0_0 : ∀ a, (![0, 0, 0] : Fin 3 → Nat) a + S1x1024x1280.size a ≤ S1x1024x1280.size a
  h_S1x1024x1280 : 0 < S1x1024x1280.numel
  shapeCasts_S1x1024x1280_S1024x1280 : S1x1024x1280.ShapeCasts S1024x1280
  shapeCasts_S1024x1280_S1x1024x1280 : S1024x1280.ShapeCasts S1x1024x1280
  inb_S1x128x1280_S1x128x1280_0_0_0 : ∀ a, (![0, 0, 0] : Fin 3 → Nat) a + S1x128x1280.size a ≤ S1x128x1280.size a
  h_S1x128x1280 : 0 < S1x128x1280.numel
  shapeCasts_S1x128x1280_S128x1280 : S1x128x1280.ShapeCasts S128x1280
  gather_S8x64x1280_S32x1_S32x64x1280_12_0_n_n_0_1_1641280_wf : GatherDims.WF S8x64x1280 S32x1 S32x64x1280 [1, 2] [0] [] [0] [] 1 ![1, 64, 1280]
  gather_S8x1280x64_S32x1_S32x1280x64_12_0_n_n_0_1_1128064_wf : GatherDims.WF S8x1280x64 S32x1 S32x1280x64 [1, 2] [0] [] [0] [] 1 ![1, 1280, 64]
  dot_S1024x1280_S128x1280_S1024x128_1_1_0_0_n_n_wf : DotDims.WF S1024x1280 S128x1280 S1024x128 [1] [1] [0] [0] [] []
  dot_S1024x128_S128x1280_S1024x1280_1_0_0_1_n_n_wf : DotDims.WF S1024x128 S128x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1280.size a ≤ S32x4096x1280.size a
  hwx0_0 : ∀ i : grid0.Coords, EltTy.bits .f32 = 32 ∨ (Rect.block (s := S32x4096x1280) S1x1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1280.size a ≤ S32x128x1280.size a
  hwx0_1 : ∀ i : grid0.Coords, EltTy.bits .bf16 = 32 ∨ (Rect.block (s := S32x128x1280) S1x128x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1280.size a ≤ S32x128x1280.size a
  hwx0_2 : ∀ i : grid0.Coords, EltTy.bits .bf16 = 32 ∨ (Rect.block (s := S32x128x1280) S1x128x1280.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1280.size a ≤ S32x4096x1280.size a
  hwx0_3 : ∀ i : grid0.Coords, EltTy.bits .f32 = 32 ∨ (Rect.block (s := S32x4096x1280) S1x1024x1280.size (cc0_transform_3 i) (hinb0_3 i)).WholeWords (EltTy.packing .f32)

variable [Facts₀]

def gather_S8x64x1280_S32x1_S32x64x1280_12_0_n_n_0_1_1641280 : GatherDims S8x64x1280 S32x1 S32x64x1280 where
  offsetDims := [1, 2]
  collapsedSliceDims := [0]
  operandBatchingDims := []
  startIndicesBatchingDims := []
  startIndexMap := [0]
  indexVectorDim := 1
  sliceSizes := ![1, 64, 1280]
  wf := gather_S8x64x1280_S32x1_S32x64x1280_12_0_n_n_0_1_1641280_wf
def gather_S8x1280x64_S32x1_S32x1280x64_12_0_n_n_0_1_1128064 : GatherDims S8x1280x64 S32x1 S32x1280x64 where
  offsetDims := [1, 2]
  collapsedSliceDims := [0]
  operandBatchingDims := []
  startIndicesBatchingDims := []
  startIndexMap := [0]
  indexVectorDim := 1
  sliceSizes := ![1, 1280, 64]
  wf := gather_S8x1280x64_S32x1_S32x1280x64_12_0_n_n_0_1_1128064_wf
def dot_S1024x1280_S128x1280_S1024x128_1_1_0_0_n_n : DotDims S1024x1280 S128x1280 S1024x128 where
  lhsContracting := [1]
  rhsContracting := [1]
  lhsNonContracting := [0]
  rhsNonContracting := [0]
  lhsBatch := []
  rhsBatch := []
  wf := dot_S1024x1280_S128x1280_S1024x128_1_1_0_0_n_n_wf
def dot_S1024x128_S128x1280_S1024x1280_1_0_0_1_n_n : DotDims S1024x128 S128x1280 S1024x1280 where
  lhsContracting := [1]
  rhsContracting := [0]
  lhsNonContracting := [0]
  rhsNonContracting := [1]
  lhsBatch := []
  rhsBatch := []
  wf := dot_S1024x128_S128x1280_S1024x1280_1_0_0_1_n_n_wf

abbrev win0_0 : Pipeline.Window sig grid0 :=
  Pipeline.Window.ofSpec (Memref.whole main_arg0) S1x1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x128x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S32x4096x1280 : Shape := ⟨3, ![32, 4096, 1280]⟩
abbrev S32x8 : Shape := ⟨2, ![32, 8]⟩
abbrev S8x64x1280 : Shape := ⟨3, ![8, 64, 1280]⟩
abbrev S8x1280x64 : Shape := ⟨3, ![8, 1280, 64]⟩
abbrev S64x1280 : Shape := ⟨2, ![64, 1280]⟩
abbrev S1280x64 : Shape := ⟨2, ![1280, 64]⟩
abbrev S32 : Shape := ⟨1, ![32]⟩
abbrev S_ : Shape := ⟨0, ![]⟩
abbrev S32x1 : Shape := ⟨2, ![32, 1]⟩
abbrev S32x64x1280 : Shape := ⟨3, ![32, 64, 1280]⟩
abbrev S32x1280x64 : Shape := ⟨3, ![32, 1280, 64]⟩
abbrev S32x4096x64 : Shape := ⟨3, ![32, 4096, 64]⟩
abbrev S32x1x1 : Shape := ⟨3, ![32, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x4096x1280, .f32⟩
  | .hbm, ⟨1, _⟩ => ⟨S32x8, .f32⟩
  | .hbm, ⟨2, _⟩ => ⟨S8x64x1280, .f32⟩
  | .hbm, ⟨3, _⟩ => ⟨S8x1280x64, .f32⟩
  | .hbm, ⟨4, _⟩ => ⟨S64x1280, .f32⟩
  | .hbm, ⟨5, _⟩ => ⟨S1280x64, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x64x1280, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x1280x64, .f32⟩
  | .hbm, ⟨25, _⟩ => ⟨S32x4096x64, .f32⟩
  | .hbm, ⟨26, _⟩ => ⟨S32x4096x1280, .f32⟩
  | .hbm, ⟨27, _⟩ => ⟨S_, .f32⟩
  | .hbm, ⟨28, _⟩ => ⟨S32x4096x1280, .f32⟩
  | .hbm, ⟨29, _⟩ => ⟨S32x4096x1280, .f32⟩
  | .hbm, ⟨30, _⟩ => ⟨S32x4096x64, .f32⟩
  | .hbm, ⟨31, _⟩ => ⟨S32x4096x1280, .f32⟩
  | .hbm, ⟨32, _⟩ => ⟨S_, .f32⟩
  | .hbm, ⟨33, _⟩ => ⟨S32x4096x1280, .f32⟩
  | .hbm, ⟨34, _⟩ => ⟨S32x4096x1280, .f32⟩
  | .hbm, ⟨35, _⟩ => ⟨S32x4096x1280, .f32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S32x1x1, .i1⟩
  | .hbm, ⟨41, _⟩ => ⟨S_, .f32⟩
  | .hbm, ⟨42, _⟩ => ⟨S32x4096x1280, .i1⟩
  | .hbm, ⟨43, _⟩ => ⟨S32x4096x1280, .f32⟩
  | .hbm, ⟨44, _⟩ => ⟨S32x4096x1280, .f32⟩
  | _, _ => ⟨S32x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x4096x1280 : S_.BroadcastsInDim S32x4096x1280 (![] : Fin 0 → Fin S32x4096x1280.rank)
  bcast_S32_S32x1x1_0 : S32.BroadcastsInDim S32x1x1 (![0] : Fin 1 → Fin S32x1x1.rank)
  bcast_S32x1x1_S32x4096x1280_0_1_2 : S32x1x1.BroadcastsInDim S32x4096x1280 (![0, 1, 2] : Fin 3 → Fin S32x4096x1280.rank)
  gather_S8x64x1280_S32x1_S32x64x1280_12_0_n_n_0_1_1641280_wf : GatherDims.WF S8x64x1280 S32x1 S32x64x1280 [1, 2] [0] [] [0] [] 1 ![1, 64, 1280]
  gather_S8x1280x64_S32x1_S32x1280x64_12_0_n_n_0_1_1128064_wf : GatherDims.WF S8x1280x64 S32x1 S32x1280x64 [1, 2] [0] [] [0] [] 1 ![1, 1280, 64]
  dot_S32x4096x1280_S32x64x1280_S32x4096x64_2_2_1_1_0_0_wf : DotDims.WF S32x4096x1280 S32x64x1280 S32x4096x64 [2] [2] [1] [1] [0] [0]
  dot_S32x4096x64_S32x1280x64_S32x4096x1280_2_2_1_1_0_0_wf : DotDims.WF S32x4096x64 S32x1280x64 S32x4096x1280 [2] [2] [1] [1] [0] [0]
  dot_S32x4096x1280_S64x1280_S32x4096x64_2_1_01_0_n_n_wf : DotDims.WF S32x4096x1280 S64x1280 S32x4096x64 [2] [1] [0, 1] [0] [] []
  dot_S32x4096x64_S1280x64_S32x4096x1280_2_1_01_0_n_n_wf : DotDims.WF S32x4096x64 S1280x64 S32x4096x1280 [2] [1] [0, 1] [0] [] []

variable [Facts₀]

def gather_S8x64x1280_S32x1_S32x64x1280_12_0_n_n_0_1_1641280 : GatherDims S8x64x1280 S32x1 S32x64x1280 where
  offsetDims := [1, 2]
  collapsedSliceDims := [0]
  operandBatchingDims := []
  startIndicesBatchingDims := []
  startIndexMap := [0]
  indexVectorDim := 1
  sliceSizes := ![1, 64, 1280]
  wf := gather_S8x64x1280_S32x1_S32x64x1280_12_0_n_n_0_1_1641280_wf
def gather_S8x1280x64_S32x1_S32x1280x64_12_0_n_n_0_1_1128064 : GatherDims S8x1280x64 S32x1 S32x1280x64 where
  offsetDims := [1, 2]
  collapsedSliceDims := [0]
  operandBatchingDims := []
  startIndicesBatchingDims := []
  startIndexMap := [0]
  indexVectorDim := 1
  sliceSizes := ![1, 1280, 64]
  wf := gather_S8x1280x64_S32x1_S32x1280x64_12_0_n_n_0_1_1128064_wf
def dot_S32x4096x1280_S32x64x1280_S32x4096x64_2_2_1_1_0_0 : DotDims S32x4096x1280 S32x64x1280 S32x4096x64 where
  lhsContracting := [2]
  rhsContracting := [2]
  lhsNonContracting := [1]
  rhsNonContracting := [1]
  lhsBatch := [0]
  rhsBatch := [0]
  wf := dot_S32x4096x1280_S32x64x1280_S32x4096x64_2_2_1_1_0_0_wf
def dot_S32x4096x64_S32x1280x64_S32x4096x1280_2_2_1_1_0_0 : DotDims S32x4096x64 S32x1280x64 S32x4096x1280 where
  lhsContracting := [2]
  rhsContracting := [2]
  lhsNonContracting := [1]
  rhsNonContracting := [1]
  lhsBatch := [0]
  rhsBatch := [0]
  wf := dot_S32x4096x64_S32x1280x64_S32x4096x1280_2_2_1_1_0_0_wf
def dot_S32x4096x1280_S64x1280_S32x4096x64_2_1_01_0_n_n : DotDims S32x4096x1280 S64x1280 S32x4096x64 where
  lhsContracting := [2]
  rhsContracting := [1]
  lhsNonContracting := [0, 1]
  rhsNonContracting := [0]
  lhsBatch := []
  rhsBatch := []
  wf := dot_S32x4096x1280_S64x1280_S32x4096x64_2_1_01_0_n_n_wf
def dot_S32x4096x64_S1280x64_S32x4096x1280_2_1_01_0_n_n : DotDims S32x4096x64 S1280x64 S32x4096x1280 where
  lhsContracting := [2]
  rhsContracting := [1]
  lhsNonContracting := [0, 1]
  rhsNonContracting := [0]
  lhsBatch := []
  rhsBatch := []
  wf := dot_S32x4096x64_S1280x64_S32x4096x1280_2_1_01_0_n_n_wf

class Facts : Prop extends Facts₀ where

variable [Facts]
-- ==== Proof.Pieces.lean ====
/-
  What each of the body's two cases leaves in the output's staging buffer.

  The body makes one store in either case, of the whole [1,1024,1280] block: on samples 0..30 the value computed from the
  three loaded blocks, on sample 31 the zero block. A single store that covers the buffer reads back as the stored value,
  and a load of a whole buffer reads its contents; so the buffer ends holding exactly that value, as a function of the
  loaded blocks (compute case) or of nothing (zero case).
-/
import proofs.«127642_j15968688406555_2_alg».proof.Proof.Gen.KernelIdeal.Frame
import Idealize.ShloMosaic.Lib.Pipeline.Value

noncomputable section

namespace Cert.MoeLora.Cases

open Cert.KernelIdeal Cert.KernelIdeal.Gen
open Idealize.ShloMosaic Idealize.ShloMosaic.TcCoe Idealize.SL.Sem

variable {F : FTy → Type} [FloatOps F]

theorem offsets_zero : (![0, 0, 0] : Fin 3 → Nat) = fun _ => 0 := funext fun a => by fin_cases a <;> rfl

/-- Samples 0..30: the staging buffer ends holding the computed block of the three loaded blocks. -/
theorem compute_case (c : Dev nD) (i : grid0.Coords) (arg2 : Memref sig .tc .vmem S1x1024x1280 .f32) (harg2 : arg2.IsWhole)
    (arg3 : Memref sig .tc .vmem S1x128x1280 .bf16) (harg3 : arg3.IsWhole) (arg4 : Memref sig .tc .vmem S1x128x1280 .bf16) (harg4 : arg4.IsWhole)
    (arg5 : Memref sig .tc .vmem S1x1024x1280 .f32) (harg5 : arg5.IsWhole) (hc0 : ¬cond0_0 i) (hc1 : cond0_1 i)
    (x0 : Vec F S1x1024x1280 .f32) (x1 : Vec F S1x128x1280 .bf16) (x2 : Vec F S1x128x1280 .bf16) :
    out0_A_3 c i arg2 harg2 arg3 harg3 arg4 harg4 arg5 harg5 hc0 hc1 x0 x1 x2 = k0_pay2 x0 x1 x2 := by
  unfold out0_A_3
  rw [View.read_writes_eq_canon _ _ _ (cover0_A_3 c i arg2 harg2 arg3 harg3 arg4 harg4 arg5 harg5 hc0 hc1 x0 x1 x2)]
  unfold kernelRun0_A
  dsimp only
  rw [View.canon_unit_zero offsets_zero]
  simp only [View.readAt_eq_ld, harg2.read_unread, harg3.read_unread, harg4.read_unread,
    View.ld_unit_zero (S := S1x1024x1280) offsets_zero, View.ld_unit_zero (S := S1x128x1280) offsets_zero]

/-- Sample 31: the staging buffer ends holding the zero block. -/
theorem zero_case (c : Dev nD) (i : grid0.Coords) (arg2 : Memref sig .tc .vmem S1x1024x1280 .f32) (harg2 : arg2.IsWhole)
    (arg3 : Memref sig .tc .vmem S1x128x1280 .bf16) (harg3 : arg3.IsWhole) (arg4 : Memref sig .tc .vmem S1x128x1280 .bf16) (harg4 : arg4.IsWhole)
    (arg5 : Memref sig .tc .vmem S1x1024x1280 .f32) (harg5 : arg5.IsWhole) (hc0 : cond0_0 i) (hc1 : ¬cond0_1 i)
    (x0 : Vec F S1x1024x1280 .f32) (x1 : Vec F S1x128x1280 .bf16) (x2 : Vec F S1x128x1280 .bf16) :
    out0_B_3 c i arg2 harg2 arg3 harg3 arg4 harg4 arg5 harg5 hc0 hc1 x0 x1 x2 = k0_pay1 (F := F) := by
  unfold out0_B_3
  rw [View.read_writes_eq_canon _ _ _ (cover0_B_3 c i arg2 harg2 arg3 harg3 arg4 harg4 arg5 harg5 hc0 hc1 x0 x1 x2)]
  unfold kernelRun0_B
  dsimp only
  rw [View.canon_unit_zero offsets_zero]

end Cert.MoeLora.Cases

end
-- ==== Proof.Spec.lean ====
/-
  The mathematics of the mixture-of-LoRA forward pass, on the extended reals, with no program in sight.

  Write x[b,s,k] for the activations (32 samples, 4096 rows, 1280 features), Ae[b,r,k] and Be[b,d,r] for the
  per-sample expert matrices (rank 64), Ag[r,k] and Bg[d,r] for the shared ones. For every sample but the last the result is

      out[b,s,d] = 2 · ∑_{r<64} (∑_k x[b,s,k] · Ae[b,r,k]) · Be[b,d,r]  +  2 · ∑_{r<64} (∑_k x[b,s,k] · Ag[r,k]) · Bg[d,r]

  and the last sample's rows are zero (`twoPathAt`). The fused form stacks the two rank-64 factors into one rank-128 pair
  A[b,r,k], B[b,r,d] — rows 0..63 the expert's, rows 64..127 the shared ones — and computes

      out[b,s,d] = 2 · ∑_{r<128} (∑_k x[b,s,k] · A[b,r,k]) · B[b,r,d]                                   (`fusedAt`).

  The two agree: a sum over 128 indices is the sum over the first 64 plus the sum over the last 64 (addition on the
  extended reals is commutative and associative, so no finiteness is needed for this), and the factor 2 distributes
  over the sum of the two halves because 2 is a NONNEGATIVE FINITE number (on the extended reals c·(u + v) = c·u + c·v
  can fail for negative or infinite c at u = +∞, v = −∞; it holds for 0 ≤ c < +∞).
-/
import Idealize.ShloMosaic.PureOps.Ideal
import Idealize.ShloMosaic.PureOps.Ideal.Laws
import Idealize.ShloMosaic.Lib.ValueIdx

noncomputable section

open scoped BigOperators

namespace Cert.MoeLora

open Idealize.ShloMosaic Idealize.ShloMosaic.ValueIdx

/-- The f32 word of `2.0`, read on the extended reals. -/
abbrev two : EReal := Ideal.ofBits .f32 0x40000000#32
/-- The f32 word of `+0.0`, read on the extended reals. -/
abbrev zero : EReal := Ideal.ofBits .f32 0x00000000#32

/-- The word of `2.0` denotes the real number 2. -/
theorem two_eq : two = ((2 : ℝ) : EReal) := by
  simp [two, Ideal.ofBits, Ideal.ieee, -EReal.coe_mul]; norm_num

theorem two_nonneg : 0 ≤ two := by
  rw [two_eq]; exact EReal.coe_nonneg.mpr (by norm_num)

theorem two_ne_top : two ≠ ⊤ := by
  rw [two_eq]; exact EReal.coe_ne_top _

/-- Row `r` of the first (expert) half of a stack of 128 rows. -/
abbrev lo (r : Fin 64) : Fin 128 := ⟨r.val, by have := r.isLt; omega⟩
/-- Row `r` of the second (shared) half of a stack of 128 rows: row `r + 64` of the stack. -/
abbrev hi (r : Fin 64) : Fin 128 := ⟨r.val + 64, by have := r.isLt; omega⟩

/-- A sum over the 128 stacked rows is the sum over the first half plus the sum over the second half. -/
theorem sum_halves {M : Type*} [AddCommMonoid M] (f : Fin 128 → M) :
    ∑ r : Fin 128, f r = ∑ r : Fin 64, f (lo r) + ∑ r : Fin 64, f (hi r) := by
  have h := Fin.sum_univ_add (a := 64) (b := 64) (fun r : Fin (64 + 64) => f r)
  refine h.trans ?_
  refine congrArg₂ (· + ·) (Finset.sum_congr rfl fun r _ => congrArg f (Fin.ext ?_))
    (Finset.sum_congr rfl fun r _ => congrArg f (Fin.ext ?_))
  · rfl
  · show 64 + r.val = r.val + 64
    omega

section
variable (x : (⟨3, ![32, 4096, 1280]⟩ : Shape).Idx → EReal)

/-- The fused form at sample `b`, row `s`, feature `d`: twice the rank-128 product, zero on the last sample. -/
def fusedAt (A B : (⟨3, ![32, 128, 1280]⟩ : Shape).Idx → EReal) (b : Fin 32) (s : Fin 4096) (d : Fin 1280) : EReal :=
  if b.val < 31 then
    two * ∑ r : Fin 128, (∑ k : Fin 1280, x (ix3 b s k) * A (ix3 b r k)) * B (ix3 b r d)
  else zero

/-- The two-path form at sample `b`, row `s`, feature `d`: twice the expert's rank-64 product plus twice the shared
    one, zero on the last sample. -/
def twoPathAt (Ae : (⟨3, ![32, 64, 1280]⟩ : Shape).Idx → EReal) (Be : (⟨3, ![32, 1280, 64]⟩ : Shape).Idx → EReal)
    (Ag : (⟨2, ![64, 1280]⟩ : Shape).Idx → EReal) (Bg : (⟨2, ![1280, 64]⟩ : Shape).Idx → EReal)
    (b : Fin 32) (s : Fin 4096) (d : Fin 1280) : EReal :=
  if b.val < 31 then
    two * (∑ r : Fin 64, (∑ k : Fin 1280, x (ix3 b s k) * Ae (ix3 b r k)) * Be (ix3 b d r))
      + two * (∑ r : Fin 64, (∑ k : Fin 1280, x (ix3 b s k) * Ag (ix2 r k)) * Bg (ix2 d r))
  else zero

/-- The whole result array in the two-path form. -/
def twoPath (Ae : (⟨3, ![32, 64, 1280]⟩ : Shape).Idx → EReal) (Be : (⟨3, ![32, 1280, 64]⟩ : Shape).Idx → EReal)
    (Ag : (⟨2, ![64, 1280]⟩ : Shape).Idx → EReal) (Bg : (⟨2, ![1280, 64]⟩ : Shape).Idx → EReal) :
    (⟨3, ![32, 4096, 1280]⟩ : Shape).Idx → EReal :=
  fun i => twoPathAt x Ae Be Ag Bg (i 0) (i 1) (i 2)

/-- THE LAW. If the stacked factors hold the expert's rows in their first half and the shared rows in their second
    (`B` holding the transposes), the fused form is the two-path form: split the sum over the 128 rows into its halves,
    and distribute the nonnegative finite factor 2. -/
theorem fusedAt_eq_twoPathAt (A B : (⟨3, ![32, 128, 1280]⟩ : Shape).Idx → EReal)
    (Ae : (⟨3, ![32, 64, 1280]⟩ : Shape).Idx → EReal) (Be : (⟨3, ![32, 1280, 64]⟩ : Shape).Idx → EReal)
    (Ag : (⟨2, ![64, 1280]⟩ : Shape).Idx → EReal) (Bg : (⟨2, ![1280, 64]⟩ : Shape).Idx → EReal)
    (hAlo : ∀ (b : Fin 32) (r : Fin 64) (k : Fin 1280), A (ix3 b (lo r) k) = Ae (ix3 b r k))
    (hAhi : ∀ (b : Fin 32) (r : Fin 64) (k : Fin 1280), A (ix3 b (hi r) k) = Ag (ix2 r k))
    (hBlo : ∀ (b : Fin 32) (r : Fin 64) (d : Fin 1280), B (ix3 b (lo r) d) = Be (ix3 b d r))
    (hBhi : ∀ (b : Fin 32) (r : Fin 64) (d : Fin 1280), B (ix3 b (hi r) d) = Bg (ix2 d r))
    (b : Fin 32) (s : Fin 4096) (d : Fin 1280) :
    fusedAt x A B b s d = twoPathAt x Ae Be Ag Bg b s d := by
  unfold fusedAt twoPathAt
  by_cases hb : b.val < 31
  · rw [if_pos hb, if_pos hb, sum_halves, EReal.left_distrib_of_nonneg_of_ne_top two_nonneg two_ne_top]
    simp only [hAlo, hAhi, hBlo, hBhi]
  · rw [if_neg hb, if_neg hb]

end

end Cert.MoeLora

end
-- ==== Proof.Payload.lean ====
/-
  What the kernel's body computes from its three loaded blocks, read at one element.

  On samples 0..30 the body loads a block x0 of 1024 rows of x (shape [1,1024,1280]) and the sample's two stacked
  rank-128 factors x1, x2 (each [1,128,1280]), forms h[s,r] = ∑_k x0[s,k] · x1[r,k] (a product contracting the feature
  axis of both operands, into a zero accumulator), then o[s,d] = ∑_r h[s,r] · x2[r,d] (again into zero), and stores
  2 · o. The changes of float format on the way are the identity on the extended reals. So the stored block at (·, s, d) is

      2 · ∑_{r<128} (∑_{k<1280} x0[0,s,k] · x1[0,r,k]) · x2[0,r,d].

  On sample 31 it stores the zero block.
-/
import proofs.«127642_j15968688406555_2_alg».proof.Proof.Gen.KernelIdeal.Skeleton
import proofs.«127642_j15968688406555_2_alg».proof.Proof.Spec
import Idealize.ShloMosaic.Lib.ValueIdx
import Idealize.ShloMosaic.Lib.ValueLayout
import Idealize.ShloMosaic.PureOps.Ideal.Laws

noncomputable section

open scoped BigOperators

namespace Cert.MoeLora.Body

open Cert.KernelIdeal Cert.KernelIdeal.Gen
open Idealize.ShloMosaic Idealize.ShloMosaic.ValueIdx Cert.MoeLora

/-! ### Where the two products read their operands

For the output element `j` and the contraction index `q`, each operand index is `j`'s coordinate on the operand's free
axis and `q`'s one coordinate on its contracted axis. -/

theorem first_lhs_free (j : S1024x128.Idx) (q : dot_S1024x1280_S128x1280_S1024x128_1_1_0_0_n_n.contr.Idx) :
    (dot_S1024x1280_S128x1280_S1024x128_1_1_0_0_n_n.lhsIdx j q 0).val = (j 0).val := by
  unfold DotDims.lhsIdx
  rw [dif_neg (show ¬(0 : Fin S1024x1280.rank) ∈ dot_S1024x1280_S128x1280_S1024x128_1_1_0_0_n_n.lhsBatch by decide),
    dif_pos (show (0 : Fin S1024x1280.rank) ∈ dot_S1024x1280_S128x1280_S1024x128_1_1_0_0_n_n.lhsNonContracting by decide)]
  rfl
theorem first_lhs_contr (j : S1024x128.Idx) (q : dot_S1024x1280_S128x1280_S1024x128_1_1_0_0_n_n.contr.Idx) :
    (dot_S1024x1280_S128x1280_S1024x128_1_1_0_0_n_n.lhsIdx j q 1).val = (q ⟨0, by decide⟩).val :=
  dot_S1024x1280_S128x1280_S1024x128_1_1_0_0_n_n.lhsIdx_val_of_single rfl j q
theorem first_rhs_free (j : S1024x128.Idx) (q : dot_S1024x1280_S128x1280_S1024x128_1_1_0_0_n_n.contr.Idx) :
    (dot_S1024x1280_S128x1280_S1024x128_1_1_0_0_n_n.rhsIdx j q 0).val = (j 1).val := by
  unfold DotDims.rhsIdx
  rw [dif_neg (show ¬(0 : Fin S128x1280.rank) ∈ dot_S1024x1280_S128x1280_S1024x128_1_1_0_0_n_n.rhsBatch by decide),
    dif_pos (show (0 : Fin S128x1280.rank) ∈ dot_S1024x1280_S128x1280_S1024x128_1_1_0_0_n_n.rhsNonContracting by decide)]
  rfl
theorem first_rhs_contr (j : S1024x128.Idx) (q : dot_S1024x1280_S128x1280_S1024x128_1_1_0_0_n_n.contr.Idx) :
    (dot_S1024x1280_S128x1280_S1024x128_1_1_0_0_n_n.rhsIdx j q 1).val = (q ⟨0, by decide⟩).val :=
  dot_S1024x1280_S128x1280_S1024x128_1_1_0_0_n_n.rhsIdx_val_of_single rfl j q

theorem second_lhs_free (j : S1024x1280.Idx) (q : dot_S1024x128_S128x1280_S1024x1280_1_0_0_1_n_n.contr.Idx) :
    (dot_S1024x128_S128x1280_S1024x1280_1_0_0_1_n_n.lhsIdx j q 0).val = (j 0).val := by
  unfold DotDims.lhsIdx
  rw [dif_neg (show ¬(0 : Fin S1024x128.rank) ∈ dot_S1024x128_S128x1280_S1024x1280_1_0_0_1_n_n.lhsBatch by decide),
    dif_pos (show (0 : Fin S1024x128.rank) ∈ dot_S1024x128_S128x1280_S1024x1280_1_0_0_1_n_n.lhsNonContracting by decide)]
  rfl
theorem second_lhs_contr (j : S1024x1280.Idx) (q : dot_S1024x128_S128x1280_S1024x1280_1_0_0_1_n_n.contr.Idx) :
    (dot_S1024x128_S128x1280_S1024x1280_1_0_0_1_n_n.lhsIdx j q 1).val = (q ⟨0, by decide⟩).val :=
  dot_S1024x128_S128x1280_S1024x1280_1_0_0_1_n_n.lhsIdx_val_of_single rfl j q
theorem second_rhs_contr (j : S1024x1280.Idx) (q : dot_S1024x128_S128x1280_S1024x1280_1_0_0_1_n_n.contr.Idx) :
    (dot_S1024x128_S128x1280_S1024x1280_1_0_0_1_n_n.rhsIdx j q 0).val = (q ⟨0, by decide⟩).val :=
  dot_S1024x128_S128x1280_S1024x1280_1_0_0_1_n_n.rhsIdx_val_of_single rfl j q
theorem second_rhs_free (j : S1024x1280.Idx) (q : dot_S1024x128_S128x1280_S1024x1280_1_0_0_1_n_n.contr.Idx) :
    (dot_S1024x128_S128x1280_S1024x1280_1_0_0_1_n_n.rhsIdx j q 1).val = (j 1).val := by
  unfold DotDims.rhsIdx
  rw [dif_neg (show ¬(1 : Fin S128x1280.rank) ∈ dot_S1024x128_S128x1280_S1024x1280_1_0_0_1_n_n.rhsBatch by decide),
    dif_pos (show (1 : Fin S128x1280.rank) ∈ dot_S1024x128_S128x1280_S1024x1280_1_0_0_1_n_n.rhsNonContracting by decide)]
  rfl

/-- The first product: rows of the left operand against ROWS of the right one (both contract their feature axis),
    into the zero accumulator, at (s, r) is ∑_k lhs[s,k] · rhs[r,k]. -/
theorem rowsByRows_at (lhs : FVec Ideal S1024x1280 .bf16) (rhs : FVec Ideal S128x1280 .bf16) (s : Fin 1024) (r : Fin 128) :
    matmul dot_S1024x1280_S128x1280_S1024x128_1_1_0_0_n_n none lhs rhs (constant (F := Ideal) S1024x128 .f32 0x00000000#32) (ix2 s r)
      = ∑ k : Fin 1280, lhs (ix2 s k) * rhs (ix2 r k) := by
  refine (Ideal.matmul_constant_zero_apply dot_S1024x1280_S128x1280_S1024x128_1_1_0_0_n_n none lhs rhs (ix2 s r)).trans ?_
  rw [← Equiv.sum_comp (contrEquiv1 dot_S1024x1280_S128x1280_S1024x128_1_1_0_0_n_n 1280 rfl rfl).symm]
  refine Finset.sum_congr rfl fun k _ => ?_
  have hk := contrEquiv1_symm_val dot_S1024x1280_S128x1280_S1024x128_1_1_0_0_n_n 1280 rfl rfl k
  have el : dot_S1024x1280_S128x1280_S1024x128_1_1_0_0_n_n.lhsIdx (ix2 s r)
      ((contrEquiv1 dot_S1024x1280_S128x1280_S1024x128_1_1_0_0_n_n 1280 rfl rfl).symm k) = ix2 s k :=
    funext fun a => Fin.ext (by
      match a with
      | ⟨0, _⟩ => exact first_lhs_free _ _
      | ⟨1, _⟩ => exact (first_lhs_contr _ _).trans hk)
  have er : dot_S1024x1280_S128x1280_S1024x128_1_1_0_0_n_n.rhsIdx (ix2 s r)
      ((contrEquiv1 dot_S1024x1280_S128x1280_S1024x128_1_1_0_0_n_n 1280 rfl rfl).symm k) = ix2 r k :=
    funext fun a => Fin.ext (by
      match a with
      | ⟨0, _⟩ => exact first_rhs_free _ _
      | ⟨1, _⟩ => exact (first_rhs_contr _ _).trans hk)
  rw [el, er]

/-- The second product: rows of the left operand against COLUMNS of the right one, into the zero accumulator, at
    (s, d) is ∑_r lhs[s,r] · rhs[r,d]. -/
theorem rowsByCols_at (lhs : FVec Ideal S1024x128 .bf16) (rhs : FVec Ideal S128x1280 .bf16) (s : Fin 1024) (d : Fin 1280) :
    matmul dot_S1024x128_S128x1280_S1024x1280_1_0_0_1_n_n none lhs rhs (constant (F := Ideal) S1024x1280 .f32 0x00000000#32) (ix2 s d)
      = ∑ r : Fin 128, lhs (ix2 s r) * rhs (ix2 r d) := by
  refine (Ideal.matmul_constant_zero_apply dot_S1024x128_S128x1280_S1024x1280_1_0_0_1_n_n none lhs rhs (ix2 s d)).trans ?_
  rw [← Equiv.sum_comp (contrEquiv1 dot_S1024x128_S128x1280_S1024x1280_1_0_0_1_n_n 128 rfl rfl).symm]
  refine Finset.sum_congr rfl fun r _ => ?_
  have hr := contrEquiv1_symm_val dot_S1024x128_S128x1280_S1024x1280_1_0_0_1_n_n 128 rfl rfl r
  have el : dot_S1024x128_S128x1280_S1024x1280_1_0_0_1_n_n.lhsIdx (ix2 s d)
      ((contrEquiv1 dot_S1024x128_S128x1280_S1024x1280_1_0_0_1_n_n 128 rfl rfl).symm r) = ix2 s r :=
    funext fun a => Fin.ext (by
      match a with
      | ⟨0, _⟩ => exact second_lhs_free _ _
      | ⟨1, _⟩ => exact (second_lhs_contr _ _).trans hr)
  have er : dot_S1024x128_S128x1280_S1024x1280_1_0_0_1_n_n.rhsIdx (ix2 s d)
      ((contrEquiv1 dot_S1024x128_S128x1280_S1024x1280_1_0_0_1_n_n 128 rfl rfl).symm r) = ix2 r d :=
    funext fun a => Fin.ext (by
      match a with
      | ⟨0, _⟩ => exact (second_rhs_contr _ _).trans hr
      | ⟨1, _⟩ => exact second_rhs_free _ _)
  rw [el, er]

/-- The compute case's stored block at (u, s, d): twice the rank-128 product of the loaded blocks. -/
theorem computed_at (x0 : FVec Ideal S1x1024x1280 .f32) (x1 x2 : FVec Ideal S1x128x1280 .bf16)
    (u : Fin 1) (s : Fin 1024) (d : Fin 1280) :
    k0_pay2 (F := Ideal) x0 x1 x2 (ix3 u s d)
      = two * ∑ r : Fin 128, (∑ k : Fin 1280, x0 (ix3 (0 : Fin 1) s k) * x1 (ix3 (0 : Fin 1) r k)) * x2 (ix3 (0 : Fin 1) r d) := by
  unfold k0_pay2
  refine (shapeCast_ab_1ab_apply _ _ u s d).trans ?_
  refine congrArg (two * ·) ?_
  refine (rowsByCols_at _ _ s d).trans ?_
  refine Finset.sum_congr rfl fun r _ => ?_
  refine congrArg₂ (· * ·) ?_ (shapeCast_1ab_ab_apply x2 _ r d)
  refine (rowsByRows_at _ _ s r).trans ?_
  refine Finset.sum_congr rfl fun k _ => ?_
  exact congrArg₂ (· * ·) (shapeCast_1ab_ab_apply x0 _ s k) (shapeCast_1ab_ab_apply x1 _ r k)

/-- The zero case's stored block at (u, s, d): the word of +0.0. -/
theorem zeroed_at (u : Fin 1) (s : Fin 1024) (d : Fin 1280) :
    k0_pay1 (F := Ideal) (ix3 u s d) = zero := by
  unfold k0_pay1
  exact shapeCast_ab_1ab_apply _ _ u s d

end Cert.MoeLora.Body

end
-- ==== Proof.KernelValue.lean ====
/-
  What the kernel's result array holds after the run: the fused form of the arrays the launch finds.

  The grid has 32 × 4 points; point t works on sample t / 4 and on the block of rows (t mod 4)·1024 .. (t mod 4)·1024 + 1023.
  Its output block is block (t / 4, t mod 4) of the result array. For t < 124 (samples 0..30) its three input blocks are
  the same rows of x and the sample's two stacked factors, and it writes back twice the rank-128 product; for t ≥ 124
  (sample 31) it writes back zeros (its input blocks are then those of sample 30, and unused). Either way what point t
  writes back is block t of ONE function of the whole arrays, `fusedArr`; the 128 blocks tile the result array (the
  point that covers element (b, s, d) is 4·b + s / 1024), so the array ends holding that function.
-/
import proofs.«127642_j15968688406555_2_alg».proof.Proof.Gen.KernelIdeal.Value
import proofs.«127642_j15968688406555_2_alg».proof.Proof.Pieces
import proofs.«127642_j15968688406555_2_alg».proof.Proof.Payload
import proofs.«127642_j15968688406555_2_alg».proof.Proof.Spec
import Idealize.ShloMosaic.Lib.Pipeline.Value

noncomputable section

open scoped BigOperators

namespace Cert.MoeLora.Kernel

open Cert.KernelIdeal Cert.KernelIdeal.Gen
open Idealize.ShloMosaic Idealize.ShloMosaic.TcCoe Idealize.SL.Sem
open Idealize.ShloMosaic.Pipeline (Dat)
open Idealize.ShloMosaic.ValueIdx Cert.MoeLora

variable (m : (ℓ : Loc nD τ sig) → Buf (Elt Ideal) ℓ) (ρ : Dev nD → PrngReg)

/-- The fused form of x and the two stacked factors as the launch finds them, as one array. -/
def fusedArr (c : Dev nD) : S32x4096x1280.Idx → EReal := fun i =>
  fusedAt (V m c main_arg0) (V m c main_v18) (V m c main_v21) (i 0) (i 1) (i 2)

/-- The block indices of the four windows at point t, decided over the 128 points: the output's block is
    (t / 4, t mod 4, 0); below point 124 the row block of x is the same and the factors' blocks are (t / 4, 0, 0). -/
theorem block_indices : ∀ t : Fin cfg0.N,
    win0_3.index t (0 : Fin 3) = t.val / 4 ∧ win0_3.index t (1 : Fin 3) = t.val % 4 ∧ win0_3.index t (2 : Fin 3) = 0
    ∧ (t.val < 124 → win0_0.index t (0 : Fin 3) = t.val / 4) ∧ win0_0.index t (1 : Fin 3) = t.val % 4 ∧ win0_0.index t (2 : Fin 3) = 0
    ∧ (t.val < 124 → win0_1.index t (0 : Fin 3) = t.val / 4) ∧ win0_1.index t (1 : Fin 3) = 0 ∧ win0_1.index t (2 : Fin 3) = 0
    ∧ (t.val < 124 → win0_2.index t (0 : Fin 3) = t.val / 4) ∧ win0_2.index t (1 : Fin 3) = 0 ∧ win0_2.index t (2 : Fin 3) = 0 :=
  (by decide +kernel : ∀ t : Fin grid0.N, _)

theorem point_lt (t : Fin cfg0.N) : t.val < 128 := lt_of_lt_of_eq t.isLt (show cfg0.N = 128 from N_0)

/-- The sample point t works on. -/
def smp (t : Fin cfg0.N) : Fin 32 := ⟨t.val / 4, by have := point_lt t; omega⟩
/-- Row s of point t's block of rows, as a row of the array. -/
def row (t : Fin cfg0.N) (s : Fin 1024) : Fin 4096 := ⟨t.val % 4 * 1024 + s.val, by have := s.isLt; omega⟩

/-- Below point 124, the loaded block of x at (·, s, k) is x at (sample, row, k). -/
theorem xBlock_at (c : Dev nD) (t : Fin cfg0.N) (ht : t.val < 124) (s : Fin 1024) (k : Fin 1280) :
    iblk m c 0 t (ix3 (0 : Fin 1) s k) = V m c main_arg0 (ix3 (smp t) (row t s) k) := by
  obtain ⟨-, -, -, e0, e1, e2, -⟩ := block_indices t
  have e0 := e0 ht
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 1024 + 1 * s.val = t.val % 4 * 1024 + s.val; omega
  | ⟨2, _⟩ => show win0_0.index t (2 : Fin 3) * 1280 + 1 * k.val = k.val; omega

/-- Below point 124, the loaded block of the first stacked factor at (·, r, k) is the factor at (sample, r, k). -/
theorem aBlock_at (c : Dev nD) (t : Fin cfg0.N) (ht : t.val < 124) (r : Fin 128) (k : Fin 1280) :
    iblk m c 1 t (ix3 (0 : Fin 1) r k) = V m c main_v18 (ix3 (smp t) r k) := by
  obtain ⟨-, -, -, -, -, -, e0, e1, e2, -⟩ := block_indices t
  have e0 := e0 ht
  unfold iblk
  rw [View.read_apply]
  show V m c main_v18 _ = V m c main_v18 _
  refine congrArg (V m c main_v18) (funext fun a => Fin.ext ?_)
  match a with
  | ⟨0, _⟩ => show win0_1.index t (0 : Fin 3) * 1 + 1 * 0 = t.val / 4; omega
  | ⟨1, _⟩ => show win0_1.index t (1 : Fin 3) * 128 + 1 * r.val = r.val; omega
  | ⟨2, _⟩ => show win0_1.index t (2 : Fin 3) * 1280 + 1 * k.val = k.val; omega

/-- Below point 124, the loaded block of the second stacked factor at (·, r, d) is the factor at (sample, r, d). -/
theorem bBlock_at (c : Dev nD) (t : Fin cfg0.N) (ht : t.val < 124) (r : Fin 128) (d : Fin 1280) :
    iblk m c 2 t (ix3 (0 : Fin 1) r d) = V m c main_v21 (ix3 (smp t) r d) := by
  obtain ⟨-, -, -, -, -, -, -, -, -, e0, e1, e2⟩ := block_indices t
  have e0 := e0 ht
  unfold iblk
  rw [View.read_apply]
  show V m c main_v21 _ = V m c main_v21 _
  refine congrArg (V m c main_v21) (funext fun a => Fin.ext ?_)
  match a with
  | ⟨0, _⟩ => show win0_2.index t (0 : Fin 3) * 1 + 1 * 0 = t.val / 4; omega
  | ⟨1, _⟩ => show win0_2.index t (1 : Fin 3) * 128 + 1 * r.val = r.val; omega
  | ⟨2, _⟩ => show win0_2.index t (2 : Fin 3) * 1280 + 1 * d.val = d.val; omega

/-- Element (·, s, d) of point t's output block is element (sample, row, d) of the result array. -/
theorem out_position (t : Fin cfg0.N) (y : ((cfg0.win 3).xblock (grid0.coords t)).Idx) :
    ((cfg0.win 3).blk t).view.emb y = ix3 (smp t) (row t ⟨(y 1).val, (y 1).isLt⟩) (⟨(y 2).val, (y 2).isLt⟩ : Fin 1280) := by
  obtain ⟨e0, e1, e2, -⟩ := block_indices t
  funext a
  apply Fin.ext
  match a with
  | ⟨0, _⟩ =>
    show win0_3.index t (0 : Fin 3) * 1 + 1 * (y 0).val = t.val / 4
    have h : (y 0).val < 1 := (y 0).isLt
    omega
  | ⟨1, _⟩ => show win0_3.index t (1 : Fin 3) * 1024 + 1 * (y 1).val = t.val % 4 * 1024 + (y 1).val; omega
  | ⟨2, _⟩ => show win0_3.index t (2 : Fin 3) * 1280 + 1 * (y 2).val = (y 2).val; omega

/-- An index of the output block, by its coordinates. -/
theorem block_index (t : Fin cfg0.N) (y : ((cfg0.win 3).xblock (grid0.coords t)).Idx) :
    win0_3.xinj (grid0.coords t) y
      = ix3 (⟨(y 0).val, (y 0).isLt⟩ : Fin 1) (⟨(y 1).val, (y 1).isLt⟩ : Fin 1024) (⟨(y 2).val, (y 2).isLt⟩ : Fin 1280) :=
  funext fun a => by match a with | ⟨0, _⟩ => rfl | ⟨1, _⟩ => rfl | ⟨2, _⟩ => rfl

/-- WHAT POINT t WRITES BACK is block t of the fused form. -/
theorem flushed_eq (c : Dev nD) (t : Fin cfg0.N) :
    (dats m 0 c).flushed 3 t = ((cfg0.win 3).blk t).view.read (Elt Ideal) (fusedArr m c) := by
  have hN := point_lt t
  by_cases ht : t.val < 124
  · rw [Value.flushed3_A m c t (by omega) ht,
      Cases.compute_case c (grid0.coords t) (ms0_0 t) (hs0_0 t) (ms0_1 t) (hs0_1 t) (ms0_2 t) (hs0_2 t) (ms0_3 t) (hs0_3 t) _ _
        (iblk m c 0 t) (iblk m c 1 t) (iblk m c 2 t)]
    funext y
    show k0_pay2 (F := Ideal) (iblk m c 0 t) (iblk m c 1 t) (iblk m c 2 t) (win0_3.xinj (grid0.coords t) y)
      = fusedArr m c (((cfg0.win 3).blk t).view.emb y)
    rw [out_position, block_index, Body.computed_at (iblk m c 0 t) (iblk m c 1 t) (iblk m c 2 t)]
    show _ = fusedAt (V m c main_arg0) (V m c main_v18) (V m c main_v21) (smp t) (row t ⟨(y 1).val, (y 1).isLt⟩) ⟨(y 2).val, (y 2).isLt⟩
    unfold fusedAt
    rw [if_pos (show (smp t).val < 31 from by show t.val / 4 < 31; omega)]
    refine congrArg (two * ·) (Finset.sum_congr rfl fun r _ => ?_)
    exact congrArg₂ (· * ·)
      (Finset.sum_congr rfl fun k _ => congrArg₂ (· * ·) (xBlock_at m c t ht _ k) (aBlock_at m c t ht r k))
      (bBlock_at m c t ht r _)
  · rw [Value.flushed3_B m c t (by omega) ht,
      Cases.zero_case c (grid0.coords t) (ms0_0 t) (hs0_0 t) (ms0_1 t) (hs0_1 t) (ms0_2 t) (hs0_2 t) (ms0_3 t) (hs0_3 t) _ _
        (iblk m c 0 t) (iblk m c 1 t) (iblk m c 2 t)]
    funext y
    show k0_pay1 (F := Ideal) (win0_3.xinj (grid0.coords t) y) = fusedArr m c (((cfg0.win 3).blk t).view.emb y)
    rw [out_position, block_index, Body.zeroed_at]
    show _ = fusedAt (V m c main_arg0) (V m c main_v18) (V m c main_v21) (smp t) (row t ⟨(y 1).val, (y 1).isLt⟩) ⟨(y 2).val, (y 2).isLt⟩
    unfold fusedAt
    rw [if_neg (show ¬(smp t).val < 31 from by show ¬t.val / 4 < 31; omega)]

/-- An index of the array is in point t's block iff each coordinate is in the block's range on its axis. -/
theorem mem_block (t : Fin cfg0.N) (i : S32x4096x1280.Idx) :
    i ∈ ((cfg0.win 3).blk t).view.set ↔ ∀ a : Fin 3, win0_3.index t a * S1x1024x1280.size a ≤ (i a).val
      ∧ (i a).val < win0_3.index t a * S1x1024x1280.size a + S1x1024x1280.size a := by
  show i ∈ ((View.whole main_v22).slice (win0_3.rect t)).set ↔ _
  rw [View.set_slice_whole, Rect.mem_set_unit]
  exact Iff.rfl

/-- The blocks tile the array: element (b, s, d) is in the block of point 4·b + s / 1024, which writes back. -/
theorem covered (i : S32x4096x1280.Idx) :
    ∃ t : Fin cfg0.N, (cfg0.win 3).flush t = true ∧ i ∈ ((cfg0.win 3).blk t).view.set := by
  have h0 : (i 0).val < 32 := (i 0).isLt
  have h1 : (i 1).val < 4096 := (i 1).isLt
  have h2 : (i 2).val < 1280 := (i 2).isLt
  obtain ⟨t, ht⟩ : ∃ t : Fin cfg0.N, t.val = (i 0).val * 4 + (i 1).val / 1024 :=
    ⟨⟨(i 0).val * 4 + (i 1).val / 1024, by rw [show cfg0.N = 128 from N_0]; omega⟩, rfl⟩
  obtain ⟨e0, e1, e2, -⟩ := block_indices t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1280 ≤ (i 2).val ∧ (i 2).val < win0_3.index t (2 : Fin 3) * 1280 + 1280
    omega

/-- So the result array ends holding the fused form. -/
theorem final (c : Dev nD) : (dats m 0 c).arrAt 3 cfg0.N = fusedArr m c :=
  (dats m 0 c).arrAt_eq_of_cover 3 (fusedArr m c) (fun t _ => flushed_eq m c t) covered

/-- The run, read: the result array at the fused form, the arguments unchanged. -/
theorem run : θ_run defs (onTc (τ := τ) (main (F := Ideal))) ⟨m, fun _ => 0, ρ⟩ fun r => ∀ c : Dev nD,
      r.2.mem ((c : Thread nD τ).loc main_v22) = fusedArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.MoeLora.Kernel

end
-- ==== Proof.HostGlue.lean ====
/-
  The two stacked rank-128 factors the kernel's wrapper builds before the launch, read at one element.

  From the labels (a negative label is first raised by 8, the index convention of array indexing) the wrapper gathers
  the per-sample expert matrices Ae = A_experts[label] ([32,64,1280]) and Be = B_experts[label] ([32,1280,64]); the
  gathers are kept as they stand (the reference computes the same two gathers from the same operands). It then stacks,
  along the rank axis,

      A[b, r, k] = Ae[b, r, k]        for r < 64,      A[b, 64 + r, k] = Ag[r, k]      (the shared matrix, the same for every b),
      B[b, r, d] = Be[b, d, r]        for r < 64,      B[b, 64 + r, d] = Bg[d, r]      (both transposed),

  and rounds both to bf16, which is the identity on the extended reals.
-/
import proofs.«127642_j15968688406555_2_alg».proof.Proof.Gen.KernelIdeal.Frame
import proofs.«127642_j15968688406555_2_alg».proof.Proof.Spec
import Idealize.ShloMosaic.Lib.Pipeline.Value
import Idealize.ShloMosaic.Lib.ValueLayout
import Idealize.ShloMosaic.Lib.StableHlo.Run

noncomputable section

namespace Cert.MoeLora.Glue

open Cert.KernelIdeal Cert.KernelIdeal.Gen
open Idealize.ShloMosaic Idealize.ShloMosaic.TcCoe Idealize.SL.Sem Idealize.ShloMosaic.StableHlo
open Idealize.ShloMosaic.ValueIdx Cert.MoeLora

/-- The gather's start indices: each label, raised by 8 when negative, as a column. -/
def rowIndex (lbl : (⟨S32, .i32⟩ : BufTy).Contents (Elt Ideal)) : (⟨S32x1, .i32⟩ : BufTy).Contents (Elt Ideal) :=
  broadcastInDim S32x1 ![0] bcast_S32_S32x1_0
    (select (cmpi .slt lbl (broadcastInDim S32 ![] bcast_S_S32 (constantI S_ 32 0#32)))
      (addi lbl (broadcastInDim S32 ![] bcast_S_S32 (constantI S_ 32 8#32))) lbl)

/-- Ae = A_experts[label]. -/
def expertA (xa : (⟨S8x64x1280, .f32⟩ : BufTy).Contents (Elt Ideal)) (lbl : (⟨S32, .i32⟩ : BufTy).Contents (Elt Ideal)) :
    (⟨S32x64x1280, .f32⟩ : BufTy).Contents (Elt Ideal) :=
  Host.gather gather_S8x64x1280_S32x1_S32x64x1280_12_0_n_n_0_1_1641280 xa (rowIndex lbl)

/-- Be = B_experts[label]. -/
def expertB (xb : (⟨S8x1280x64, .f32⟩ : BufTy).Contents (Elt Ideal)) (lbl : (⟨S32, .i32⟩ : BufTy).Contents (Elt Ideal)) :
    (⟨S32x1280x64, .f32⟩ : BufTy).Contents (Elt Ideal) :=
  Host.gather gather_S8x1280x64_S32x1_S32x1280x64_12_0_n_n_0_1_1128064 xb (rowIndex lbl)

variable (m : (ℓ : Loc nD τ sig) → Buf (Elt Ideal) ℓ)

/-- The first stacked factor as the launch finds it: the expert rows above the shared rows, rounded to bf16. -/
theorem stackedA_eq (c : Dev nD) :
    @Eq (S32x128x1280.Idx → EReal) (V m c main_v18)
      (truncf (F := Ideal) .bf16 (concatenate S32x128x1280 1
          [⟨S32x64x1280, expertA (m ((c : Thread nD τ).loc main_arg2)) (m ((c : Thread nD τ).loc main_arg6))⟩,
           ⟨S32x64x1280, broadcastInDim S32x64x1280 ![1, 2] bcast_S64x1280_S32x64x1280_1_2 (m ((c : Thread nD τ).loc main_arg4))⟩]
          concatenates_S32x64x1280_S32x64x1280_S32x128x1280_d1) bitsLt_bf16_f32) := by
  dsimp only [Gen.V, Gen.hostOps0]
  after_results
  rfl

/-- The second stacked factor as the launch finds it: the transposed expert rows above the transposed shared rows,
    rounded to bf16. -/
theorem stackedB_eq (c : Dev nD) :
    @Eq (S32x128x1280.Idx → EReal) (V m c main_v21)
      (truncf (F := Ideal) .bf16 (concatenate S32x128x1280 1
          [⟨S32x64x1280, transpose S32x64x1280 [0, 2, 1]
              (expertB (m ((c : Thread nD τ).loc main_arg3)) (m ((c : Thread nD τ).loc main_arg6))) transposes_S32x1280x64_S32x64x1280_0_2_1⟩,
           ⟨S32x64x1280, broadcastInDim S32x64x1280 ![1, 2] bcast_S64x1280_S32x64x1280_1_2
              (transpose S64x1280 [1, 0] (m ((c : Thread nD τ).loc main_arg5)) transposes_S1280x64_S64x1280_1_0)⟩]
          concatenates_S32x64x1280_S32x64x1280_S32x128x1280_d1) bitsLt_bf16_f32) := by
  dsimp only [Gen.V, Gen.hostOps0]
  after_results_simp <;> rfl

/-- A[b, r, k] = Ae[b, r, k] on the first 64 rows. -/
theorem stackedA_lo (c : Dev nD) (b : Fin 32) (r : Fin 64) (k : Fin 1280) :
    (V m c main_v18 : S32x128x1280.Idx → EReal) (ix3 b (lo r) k)
      = expertA (m ((c : Thread nD τ).loc main_arg2)) (m ((c : Thread nD τ).loc main_arg6)) (ix3 b r k) := by
  rw [stackedA_eq, truncf_apply]
  exact concatenate_pair_apply_left (1 : Fin S32x128x1280.rank) _ _ concatenates_S32x64x1280_S32x64x1280_S32x128x1280_d1
    (ix3 b (lo r) k) rfl (ix3 b r k) (fun a => by match a with | ⟨0, _⟩ => rfl | ⟨1, _⟩ => rfl | ⟨2, _⟩ => rfl)

/-- A[b, 64 + r, k] = Ag[r, k] on the last 64 rows, whatever the sample. -/
theorem stackedA_hi (c : Dev nD) (b : Fin 32) (r : Fin 64) (k : Fin 1280) :
    (V m c main_v18 : S32x128x1280.Idx → EReal) (ix3 b (hi r) k) = m ((c : Thread nD τ).loc main_arg4) (ix2 r k) := by
  rw [stackedA_eq, truncf_apply]
  refine (concatenate_pair_apply_right (1 : Fin S32x128x1280.rank) _ _ concatenates_S32x64x1280_S32x64x1280_S32x128x1280_d1
    (ix3 b (hi r) k) rfl rfl (ix3 b r k)
    (fun a ha => by
      match a, ha with
      | ⟨0, _⟩, _ => rfl
      | ⟨1, _⟩, ha => exact absurd rfl ha
      | ⟨2, _⟩, _ => rfl) rfl).trans ?_
  exact broadcastInDim_apply _ bcast_S64x1280_S32x64x1280_1_2 _ (ix3 b r k) (ix2 r k) (fun a => match a with
    | ⟨0, _⟩ => by show r.val = if (64 : Nat) = 1 then 0 else r.val; rw [if_neg (by decide)]
    | ⟨1, _⟩ => by show k.val = if (1280 : Nat) = 1 then 0 else k.val; rw [if_neg (by decide)])

/-- B[b, r, d] = Be[b, d, r] on the first 64 rows. -/
theorem stackedB_lo (c : Dev nD) (b : Fin 32) (r : Fin 64) (d : Fin 1280) :
    (V m c main_v21 : S32x128x1280.Idx → EReal) (ix3 b (lo r) d)
      = expertB (m ((c : Thread nD τ).loc main_arg3)) (m ((c : Thread nD τ).loc main_arg6)) (ix3 b d r) := by
  rw [stackedB_eq, truncf_apply]
  refine (concatenate_pair_apply_left (1 : Fin S32x128x1280.rank) _ _ concatenates_S32x64x1280_S32x64x1280_S32x128x1280_d1
    (ix3 b (lo r) d) rfl (ix3 b r d) (fun a => by match a with | ⟨0, _⟩ => rfl | ⟨1, _⟩ => rfl | ⟨2, _⟩ => rfl)).trans ?_
  exact transpose_ix3_021_apply _ transposes_S32x1280x64_S32x64x1280_0_2_1 b r d

/-- B[b, 64 + r, d] = Bg[d, r] on the last 64 rows, whatever the sample. -/
theorem stackedB_hi (c : Dev nD) (b : Fin 32) (r : Fin 64) (d : Fin 1280) :
    (V m c main_v21 : S32x128x1280.Idx → EReal) (ix3 b (hi r) d) = m ((c : Thread nD τ).loc main_arg5) (ix2 d r) := by
  rw [stackedB_eq, truncf_apply]
  refine (concatenate_pair_apply_right (1 : Fin S32x128x1280.rank) _ _ concatenates_S32x64x1280_S32x64x1280_S32x128x1280_d1
    (ix3 b (hi r) d) rfl rfl (ix3 b r d)
    (fun a ha => by
      match a, ha with
      | ⟨0, _⟩, _ => rfl
      | ⟨1, _⟩, ha => exact absurd rfl ha
      | ⟨2, _⟩, _ => rfl) rfl).trans ?_
  refine (broadcastInDim_apply _ bcast_S64x1280_S32x64x1280_1_2 _ (ix3 b r d) (ix2 r d) (fun a => match a with
    | ⟨0, _⟩ => by show r.val = if (64 : Nat) = 1 then 0 else r.val; rw [if_neg (by decide)]
    | ⟨1, _⟩ => by show d.val = if (1280 : Nat) = 1 then 0 else d.val; rw [if_neg (by decide)])).trans ?_
  exact transpose_ix2_apply _ transposes_S1280x64_S64x1280_1_0 r d

end Cert.MoeLora.Glue

end
-- ==== Proof.RefSide.lean ====
/-
  The reference computes the two-path form.

  Its program gathers the per-sample expert matrices Ae = A_experts[label], Be = B_experts[label], contracts
  x with Ae over the features and the result with Be over the rank (the expert path), does the same with the shared
  matrices (the shared path), doubles each, adds them, and keeps the sum on samples 0..30 and zero on sample 31 (the mask
  `iota < 31` broadcast over rows and features). Read at (b, s, d), stage by stage, that is `twoPathAt` of the
  specification with the gathered matrices as they stand: the gathers are never opened.
-/
import proofs.«127642_j15968688406555_2_alg».proof.Proof.Gen.ReferenceIdeal.Read
import proofs.«127642_j15968688406555_2_alg».proof.Proof.Spec

noncomputable section

open scoped BigOperators

namespace Cert.MoeLora.Ref

open Cert.ReferenceIdeal Cert.ReferenceIdeal.Gen Cert.ReferenceIdeal.Read
open Idealize.ShloMosaic Idealize.ShloMosaic.ValueIdx Cert.MoeLora

/-- The mask's bit at sample `b`: the signed comparison of the 32-bit word of `b` with 31 is the bit of `b < 31`. -/
theorem mask_bit : ∀ b : Fin 32, IntOp.cmpi .slt (BitVec.ofNat 32 b.val) 31#32 = if b.val < 31 then 1#1 else 0#1 := by
  decide

variable (x0 : (⟨S32x4096x1280, .f32⟩ : BufTy).Contents (Elt Ideal)) (x2 : (⟨S8x64x1280, .f32⟩ : BufTy).Contents (Elt Ideal))
  (x3 : (⟨S8x1280x64, .f32⟩ : BufTy).Contents (Elt Ideal)) (x4 : (⟨S64x1280, .f32⟩ : BufTy).Contents (Elt Ideal))
  (x5 : (⟨S1280x64, .f32⟩ : BufTy).Contents (Elt Ideal)) (x6 : (⟨S32, .i32⟩ : BufTy).Contents (Elt Ideal))

/-- The expert path before doubling, at (b, s, d): ∑_r (∑_k x[b,s,k] · Ae[b,r,k]) · Be[b,d,r]. -/
theorem expert_at (b : Fin 32) (s : Fin 4096) (d : Fin 1280) :
    val_main_v15 (F := Ideal) x0 x2 x3 x6 (ix3 b s d)
      = ∑ r : Fin 64, (∑ k : Fin 1280, x0 (ix3 b s k) * val_main_v6 (F := Ideal) x2 x6 (ix3 b r k))
          * val_main_v13 (F := Ideal) x3 x6 (ix3 b d r) := by
  rw [val_main_v15_apply]
  refine Finset.sum_congr rfl fun r _ => ?_
  have el : lidx_main_v15 (ix3 b s d) r = ix3 b s r :=
    funext fun a => by match a with | ⟨0, _⟩ => rfl | ⟨1, _⟩ => rfl | ⟨2, _⟩ => rfl
  have er : ridx_main_v15 (ix3 b s d) r = ix3 b d r :=
    funext fun a => by match a with | ⟨0, _⟩ => rfl | ⟨1, _⟩ => rfl | ⟨2, _⟩ => rfl
  rw [el, er, val_main_v14_apply]
  refine congrArg (· * _) (Finset.sum_congr rfl fun k _ => ?_)
  have el' : lidx_main_v14 (ix3 b s r) k = ix3 b s k :=
    funext fun a => by match a with | ⟨0, _⟩ => rfl | ⟨1, _⟩ => rfl | ⟨2, _⟩ => rfl
  have er' : ridx_main_v14 (ix3 b s r) k = ix3 b r k :=
    funext fun a => by match a with | ⟨0, _⟩ => rfl | ⟨1, _⟩ => rfl | ⟨2, _⟩ => rfl
  rw [el', er']

/-- The shared path before doubling, at (b, s, d): ∑_r (∑_k x[b,s,k] · Ag[r,k]) · Bg[d,r]. -/
theorem shared_at (b : Fin 32) (s : Fin 4096) (d : Fin 1280) :
    val_main_v19 (F := Ideal) x0 x4 x5 (ix3 b s d)
      = ∑ r : Fin 64, (∑ k : Fin 1280, x0 (ix3 b s k) * x4 (ix2 r k)) * x5 (ix2 d r) := by
  rw [val_main_v19_apply]
  refine Finset.sum_congr rfl fun r _ => ?_
  have el : lidx_main_v19 (ix3 b s d) r = ix3 b s r :=
    funext fun a => by match a with | ⟨0, _⟩ => rfl | ⟨1, _⟩ => rfl | ⟨2, _⟩ => rfl
  have er : ridx_main_v19 (ix3 b s d) r = ix2 d r :=
    funext fun a => by match a with | ⟨0, _⟩ => rfl | ⟨1, _⟩ => rfl
  rw [el, er, val_main_v18_apply]
  refine congrArg (· * _) (Finset.sum_congr rfl fun k _ => ?_)
  have el' : lidx_main_v18 (ix3 b s r) k = ix3 b s k :=
    funext fun a => by match a with | ⟨0, _⟩ => rfl | ⟨1, _⟩ => rfl | ⟨2, _⟩ => rfl
  have er' : ridx_main_v18 (ix3 b s r) k = ix2 r k :=
    funext fun a => by match a with | ⟨0, _⟩ => rfl | ⟨1, _⟩ => rfl
  rw [el', er']

/-- The reference's result is the two-path form of x, the gathered expert matrices and the shared matrices. -/
theorem result_eq :
    val_main_v27 (F := Ideal) x0 x2 x3 x4 x5 x6
      = twoPath x0 (val_main_v6 (F := Ideal) x2 x6) (val_main_v13 (F := Ideal) x3 x6) x4 x5 := by
  funext i
  obtain ⟨b, s, d, rfl⟩ : ∃ (b : Fin 32) (s : Fin 4096) (d : Fin 1280), i = ix3 b s d := ⟨i 0, i 1, i 2, eq_ix3 i⟩
  show _ = twoPathAt x0 _ _ x4 x5 b s d
  rw [val_main_v27_apply, val_main_call0_v0_apply, val_main_v26_apply, val_main_v25_apply, val_main_v23_apply,
    val_main_v24_apply, val_main_c_4_apply, val_main_call0_v1_apply, val_main_cst_5_apply, val_main_v22_apply,
    val_main_v17_apply, val_main_v21_apply, val_main_v16_apply, val_main_v20_apply, val_main_cst_apply,
    val_main_cst_3_apply, expert_at, shared_at]
  show Scalar.select (IntOp.cmpi .slt (BitVec.ofNat 32 b.val) 31#32) _ _ = _
  rw [mask_bit b]
  unfold twoPathAt
  by_cases hb : b.val < 31
  · rw [if_pos hb, if_pos hb, select_one]
    rfl
  · rw [if_neg hb, if_neg hb, select_zero]
    rfl

end Cert.MoeLora.Ref

end
-- ==== Proof.Bridge.lean ====
/-
  The two programs end with the same array.

  The kernel's result array ends holding the fused form of x and the two stacked factors; the stacked factors hold the
  gathered expert rows above the shared rows; so by the law of the specification the kernel's array is the two-path form
  of x, the gathered expert matrices and the shared matrices. The reference's result is the same two-path form of the same
  arrays: its two gathers are the very gathers the kernel's wrapper makes (same operand, same start indices computed
  from the labels in the same way), so they are never opened.
-/
import proofs.«127642_j15968688406555_2_alg».proof.Proof.KernelValue
import proofs.«127642_j15968688406555_2_alg».proof.Proof.HostGlue
import proofs.«127642_j15968688406555_2_alg».proof.Proof.RefSide
import proofs.«127642_j15968688406555_2_alg».proof.Proof.Gen.ReferenceIdeal.Run
import proofs.«127642_j15968688406555_2_alg».proof.Proof.Gen.Pre_finite_inputs
import proofs.«127642_j15968688406555_2_alg».proof.Defs

noncomputable section

namespace Cert.MoeLora.Bridge

open Idealize.ShloMosaic Idealize.ShloMosaic.TcCoe Idealize.SL.Sem
open Idealize.ShloMosaic.ValueIdx Cert.MoeLora

/-- The reference's gather of the first expert matrices is the kernel wrapper's. -/
theorem expertA_same (x2 : (⟨Cert.KernelIdeal.S8x64x1280, .f32⟩ : BufTy).Contents (Elt Ideal))
    (x6 : (⟨Cert.KernelIdeal.S32, .i32⟩ : BufTy).Contents (Elt Ideal)) :
    Cert.ReferenceIdeal.Read.val_main_v6 (F := Ideal) x2 x6 = Glue.expertA x2 x6 := rfl

/-- The reference's gather of the second expert matrices is the kernel wrapper's. -/
theorem expertB_same (x3 : (⟨Cert.KernelIdeal.S8x1280x64, .f32⟩ : BufTy).Contents (Elt Ideal))
    (x6 : (⟨Cert.KernelIdeal.S32, .i32⟩ : BufTy).Contents (Elt Ideal)) :
    Cert.ReferenceIdeal.Read.val_main_v13 (F := Ideal) x3 x6 = Glue.expertB x3 x6 := rfl

section
open Cert.KernelIdeal Cert.KernelIdeal.Gen

variable (m : (ℓ : Loc nD τ sig) → Buf (Elt Ideal) ℓ)

/-- The common result: the two-path form of the launch contents of x, the gathered expert matrices, the shared ones. -/
def result (c : Dev nD) : S32x4096x1280.Idx → EReal :=
  twoPath (m ((c : Thread nD τ).loc main_arg0))
    (Glue.expertA (m ((c : Thread nD τ).loc main_arg2)) (m ((c : Thread nD τ).loc main_arg6)))
    (Glue.expertB (m ((c : Thread nD τ).loc main_arg3)) (m ((c : Thread nD τ).loc main_arg6)))
    (m ((c : Thread nD τ).loc main_arg4)) (m ((c : Thread nD τ).loc main_arg5))

/-- The kernel's array, the fused form, is the two-path form: the law of the specification, fed with what the stacked
    factors hold. -/
theorem kernel_result (c : Dev nD) : Kernel.fusedArr m c = result m c := by
  funext i
  show fusedAt (V m c main_arg0) (V m c main_v18) (V m c main_v21) (i 0) (i 1) (i 2)
    = twoPathAt (m ((c : Thread nD τ).loc main_arg0)) _ _ _ _ (i 0) (i 1) (i 2)
  rw [V_main_arg0 m c]
  exact fusedAt_eq_twoPathAt _ _ _ _ _ _ _ (Glue.stackedA_lo m c) (Glue.stackedA_hi m c) (Glue.stackedB_lo m c)
    (Glue.stackedB_hi m c) (i 0) (i 1) (i 2)

end

/-- The two idealized programs, from memories that agree on the arguments, both run and end with the two-path form of
    the arguments in their result arrays. -/
theorem algebraic : Cert.algebraic_KernelIdeal_ReferenceIdeal := by
  intro m ρ m' ρ' _ hagree
  refine ⟨fun c => result m c, ?_, ?_⟩
  · exact (θ_run Cert.KernelIdeal.defs _ _).mono (fun r h c => ⟨(h c).1.trans (kernel_result m c), (h c).2⟩)
      (Kernel.run m ρ)
  · refine (θ_run Cert.ReferenceIdeal.defs _ _).mono (fun r h c => ⟨?_, (h c).2⟩)
      (Cert.ReferenceIdeal.Value.run (F := Ideal) m' ρ')
    obtain ⟨a0, -, a2, a3, a4, a5, a6⟩ := hagree c
    rw [(h c).1, Cert.ReferenceIdeal.Read.val_main_v27_eq, Ref.result_eq, a0, a2, a3, a4, a5, a6, expertA_same, expertB_same]
    rfl

end Cert.MoeLora.Bridge

end
-- ==== Proof.lean ====
/-
  A mixture-of-LoRA forward pass: for every sample b but the last,

      out[b] = 2 · (x[b] · Ae[b]ᵀ) · Be[b]ᵀ + 2 · (x[b] · Agᵀ) · Bgᵀ,        Ae = A_experts[label],  Be = B_experts[label],

  and the last sample's rows are zero. The reference computes the two rank-64 paths separately and adds them. The kernel
  stacks the two rank-64 factor pairs into one rank-128 pair per sample (in its wrapper, before the launch) and, on a
  grid of 32 samples × 4 blocks of 1024 rows, computes twice the rank-128 product of each block, writing zeros for the
  last sample. On the extended reals the two are one function: a sum over 128 stacked rows is the sum over its two
  halves, and the nonnegative finite factor 2 distributes over the sum of the halves; roundings to bf16 are the identity
  there. Finiteness of the inputs is not used.

  The three frames are the generated ones (the reference's is its generated run with the result dropped); the ideal pass
  rewrote nothing, so the kernel's idealization is the kernel's own text; the equality of the results is
  `Cert.MoeLora.Bridge.algebraic`.
-/
import proofs.«127642_j15968688406555_2_alg».proof.Defs
import proofs.«127642_j15968688406555_2_alg».proof.Proof.Gen.Kernel
import proofs.«127642_j15968688406555_2_alg».proof.Proof.Gen.Kernel.Skeleton
import proofs.«127642_j15968688406555_2_alg».proof.Proof.Gen.Kernel.Launch
import proofs.«127642_j15968688406555_2_alg».proof.Proof.Gen.Kernel.Points
import proofs.«127642_j15968688406555_2_alg».proof.Proof.Gen.Kernel.Frame
import proofs.«127642_j15968688406555_2_alg».proof.Proof.Gen.KernelIdeal
import proofs.«127642_j15968688406555_2_alg».proof.Proof.Gen.KernelIdeal.Skeleton
import proofs.«127642_j15968688406555_2_alg».proof.Proof.Gen.KernelIdeal.Launch
import proofs.«127642_j15968688406555_2_alg».proof.Proof.Gen.KernelIdeal.Points
import proofs.«127642_j15968688406555_2_alg».proof.Proof.Gen.KernelIdeal.Frame
import proofs.«127642_j15968688406555_2_alg».proof.Proof.Gen.ReferenceIdeal
import proofs.«127642_j15968688406555_2_alg».proof.Proof.Gen.Pre_finite_inputs
import proofs.«127642_j15968688406555_2_alg».proof.Proof.Gen.KernelIdeal.Value
import proofs.«127642_j15968688406555_2_alg».proof.Proof.Gen.ReferenceIdeal.Run
import proofs.«127642_j15968688406555_2_alg».proof.Proof.Gen.ReferenceIdeal.Read
import proofs.«127642_j15968688406555_2_alg».proof.Proof.Bridge
import Idealize.ShloMosaic.Adequacy
import Idealize.ShloMosaic.Init

noncomputable section

namespace Cert.Proof

open Idealize.ShloMosaic Idealize.SL.Sem Cert.Kernel

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.MoeLora.Bridge.algebraic⟩

end Cert.Proof

end
